-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S400x128 : Shape := ⟨2, ![400, 128]⟩
abbrev S200x128 : Shape := ⟨2, ![200, 128]⟩

abbrev nBuf : Space → Nat
  | .hbm => 4
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S400x128, .f32⟩
  | .local _ .vmem, ⟨7, _⟩ => ⟨S400x128, .f32⟩
  | .local _ .vmem, ⟨8, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  inb_S400x128_S200x128_0_0 : ∀ a, (![0, 0] : Fin 2 → Nat) a + S200x128.size a ≤ S400x128.size a
  h_S200x128 : 0 < S200x128.numel
  inb_S400x128_S200x128_200_0 : ∀ a, (![200, 0] : Fin 2 → Nat) a + S200x128.size a ≤ S400x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.WordBody.lean ====
/-
  The kernel's body at one grid point, as a Hoare triple over whole staging buffers.

  At the first point the body fills the scratch with the product x·W (rounded to the scratch's format) and then,
  like every later point, reads that scratch back and writes two products into the two halves of the output
  block: rows 0..199 from the first adjacency block, rows 200..399 from the second. What it leaves is stated
  through the rectangles of its stores: the scratch holds `scrOf x w`, the output block `outBlk a0 a1 s`.
-/
import proofs.«154097_g60198261620747_cont_9to1c4b_559_7_alg».proof.Proof.Gen.Kernel.Launch
import proofs.«154097_g60198261620747_cont_9to1c4b_559_7_alg».proof.Proof.Gen.Kernel.Skeleton
import proofs.«154097_g60198261620747_cont_9to1c4b_559_7_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- Rows 0..199 of the output block. -/
abbrev rLo : Rect S400x128 := Rect.unit (s := S400x128) ![0, 0] S200x128.size inb_S400x128_S200x128_0_0
/-- Rows 200..399 of the output block. -/
abbrev rHi : Rect S400x128 := Rect.unit (s := S400x128) ![200, 0] S200x128.size inb_S400x128_S200x128_200_0

/-- What the first point leaves in the scratch: the product of the two small operands, in the scratch's format. -/
def scrOf (x : Vec F S10000x128 .f32) (w : Vec F S128x128 .f32) : Vec F S10000x128 .bf16 := k0_pay1 x w

/-- What a point leaves in the output block: the second adjacency block's product over rows 200..399 laid over
    the first's over rows 0..199. -/
def outBlk (a0 a1 : Vec F S200x10000 .f32) (s : Vec F S10000x128 .bf16) : Vec F S400x128 .f32 :=
  View.canon [(⟨rHi, k0_pay3 a1 s⟩ : View.Piece (Elt F) S400x128 .f32), (⟨rLo, k0_pay2 a0 s⟩ : View.Piece (Elt F) S400x128 .f32)]

/-- The zero offsets of a whole-buffer rectangle, as a constant function. -/
theorem zeros2 : (![0, 0] : Fin 2 → ℕ) = fun _ => 0 := by funext a; fin_cases a <;> rfl

/-- The branch condition of the body: the grid coordinate is zero. -/
abbrev isFirst (i : grid0.Coords) : Prop :=
  (Scalar.cmpi .ne (Scalar.extui (Scalar.cmpi .eq (BitVec.ofNat 32 (i 0).val) 0#32)) 0#32) = 1#1

/-- It holds at point 0 and at no other point of the grid. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- The body at the first point: the scratch may hold anything; it ends holding `scrOf x w`. -/
theorem body_first (c : Dev nD) (i : grid0.Coords) (hc : isFirst i)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .bf16) (harg6 : arg6.IsWhole)
    (a0 a1 : Vec F S200x10000 .f32) (x : Vec F S10000x128 .f32) (w : Vec F S128x128 .f32)
    (E : Set ℕ) (K : PUnit → sProp 𝕄) :
    iprop(owns (c : Thread nD τ) arg1 fullShare a0 ∗ owns (c : Thread nD τ) arg2 fullShare a1
        ∗ owns (c : Thread nD τ) arg3 fullShare x ∗ owns (c : Thread nD τ) arg4 fullShare w
        ∗ (∃ d, owns (c : Thread nD τ) arg5 fullShare d) ∗ (∃ d, owns (c : Thread nD τ) arg6 fullShare d)
        ∗ (iprop(owns (c : Thread nD τ) arg1 fullShare a0 ∗ owns (c : Thread nD τ) arg2 fullShare a1
            ∗ owns (c : Thread nD τ) arg3 fullShare x ∗ owns (c : Thread nD τ) arg4 fullShare w
            ∗ owns (c : Thread nD τ) arg5 fullShare (outBlk a0 a1 (scrOf x w))
            ∗ owns (c : Thread nD τ) arg6 fullShare (scrOf x w)) -∗ K ⟨⟩))
      ⊢ wp frame (wpE (defs₀ (F := F)) Variants.none c none) E
          (cc0__fused_body i arg1 harg1 arg2 harg2 arg3 harg3 arg4 harg4 arg5 harg5 arg6 harg6) K := by
  simp only [cc0__fused_body_eq_skeleton]; unfold cc0__fused_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2
  obtain rfl := harg3.eq_unread hf3; obtain rfl := harg4.eq_unread hf4
  sl_exec (disch := exact hc)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    swap; · iexact H5
    ipureintro
    rw [View.read_writes_eq_canon _ _ _ (View.cover_of_tiledL (s := S400x128) _ S200x128.size (by sl_kernel_rfl))]
    unfold outBlk scrOf
    sl_unfold_words
    simp only [View.readAt_eq_ld, hf1, hf2, hf3, hf4, View.ld_unit_zero (S := S200x10000) zeros2,
      View.ld_unit_zero (S := S10000x128) zeros2, View.ld_unit_zero (S := S128x128) zeros2,
      View.readCov_unit_zero (S := S10000x128) _ zeros2]
  · iexists _; isplitr
    swap; · iexact H6
    ipureintro
    sl_unfold_words
    unfold scrOf
    rw [View.read_writes_eq_canon _ _ _ (View.cover_of_tiledL (s := S10000x128) _ S10000x128.size (by sl_kernel_rfl)),
      View.canon_unit_zero (S := S10000x128) zeros2]
    simp only [View.readAt_eq_ld, hf3, hf4, View.ld_unit_zero (S := S10000x128) zeros2, View.ld_unit_zero (S := S128x128) zeros2]

set_option maxHeartbeats 1000000 in
/-- The body at a later point: the scratch holds `s` and is only read; it is handed back unchanged. -/
theorem body_later (c : Dev nD) (i : grid0.Coords) (hc : ¬isFirst i)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .bf16) (harg6 : arg6.IsWhole)
    (a0 a1 : Vec F S200x10000 .f32) (x : Vec F S10000x128 .f32) (w : Vec F S128x128 .f32) (s : Vec F S10000x128 .bf16)
    (E : Set ℕ) (K : PUnit → sProp 𝕄) :
    iprop(owns (c : Thread nD τ) arg1 fullShare a0 ∗ owns (c : Thread nD τ) arg2 fullShare a1
        ∗ owns (c : Thread nD τ) arg3 fullShare x ∗ owns (c : Thread nD τ) arg4 fullShare w
        ∗ (∃ d, owns (c : Thread nD τ) arg5 fullShare d) ∗ owns (c : Thread nD τ) arg6 fullShare s
        ∗ (iprop(owns (c : Thread nD τ) arg1 fullShare a0 ∗ owns (c : Thread nD τ) arg2 fullShare a1
            ∗ owns (c : Thread nD τ) arg3 fullShare x ∗ owns (c : Thread nD τ) arg4 fullShare w
            ∗ owns (c : Thread nD τ) arg5 fullShare (outBlk a0 a1 s)
            ∗ owns (c : Thread nD τ) arg6 fullShare s) -∗ K ⟨⟩))
      ⊢ wp frame (wpE (defs₀ (F := F)) Variants.none c none) E
          (cc0__fused_body i arg1 harg1 arg2 harg2 arg3 harg3 arg4 harg4 arg5 harg5 arg6 harg6) K := by
  simp only [cc0__fused_body_eq_skeleton]; unfold cc0__fused_body_skel
  unfold owns
  iintro ⟨⟨%f1, %hf1, H1⟩, ⟨%f2, %hf2, H2⟩, H3, H4, ⟨%d5, %f5, -, H5⟩, ⟨%f6, %hf6, H6⟩, Hk⟩
  obtain rfl := harg1.eq_unread hf1; obtain rfl := harg2.eq_unread hf2
  obtain rfl := harg6.eq_unread hf6
  sl_exec (disch := exact hc)
  sl_step
  iapply Hk
  isplitl [H1]
  · iexists _; isplitr
    · ipureintro; exact harg1.read_unread _
    iexact H1
  isplitl [H2]
  · iexists _; isplitr
    · ipureintro; exact harg2.read_unread _
    iexact H2
  isplitl [H3]; · iexact H3
  isplitl [H4]; · iexact H4
  isplitl [H5]
  · iexists _; isplitr
    swap; · iexact H5
    ipureintro
    rw [View.read_writes_eq_canon _ _ _ (View.cover_of_tiledL (s := S400x128) _ S200x128.size (by sl_kernel_rfl))]
    unfold outBlk
    sl_unfold_words
    simp only [View.readAt_eq_ld, hf1, hf2, hf6, View.ld_unit_zero (S := S200x10000) zeros2,
      View.ld_unit_zero (S := S10000x128) zeros2]
  · iexists _; isplitr
    · ipureintro; exact harg6.read_unread _
    iexact H6

end Cert.Kernel.Hand

end
-- ==== Proof.WordFrame.lean ====
/-
  The frame of the kernel's one pipelined region: every weakly fair execution terminates without a fault, the
  three argument arrays end as they began, and the result array ends at what the write-backs left.

  The adjacency array feeds two windows (block 2t and block 2t+1 at point t), so its buffer is held in two half
  shares, one per window, for the whole run. The scratch is filled at point 0 and only read afterwards: the
  invariant before point n > 0 says it holds the product of the two small operands.
-/
import proofs.«154097_g60198261620747_cont_9to1c4b_559_7_alg».proof.Proof.WordBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- A buffer's contents when the region is entered: no host operation precedes it, so the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t₀ : Fin cfg0.N := ⟨0, by decide⟩

/-- What the scratch holds from the first point on: the product of the two small operands' (whole) blocks. -/
def scr (c : Dev nD) : Vec F S10000x128 .bf16 := scrOf (iblk m c 2 t₀) (iblk m c 3 t₀)

/-- What point `t` leaves in the output block. -/
def outAt (c : Dev nD) (t : Fin cfg0.N) : Vec F S400x128 .f32 := outBlk (iblk m c 0 t) (iblk m c 1 t) (scr m c)

/-- The staging memrefs at a point, as the pipeline passes them, and the scratch. -/
abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
abbrev scM : Memref sig .tc .vmem S10000x128 .bf16 := Memref.whole cc0_scratch0

/-! ## The invariant -/

/-- Before point `n`: at the first point the scratch holds anything; afterwards the product. -/
def PhiS (c : Dev nD) : ℕ → sProp 𝕄
  | 0 => iprop(∃ d, owns (c : Thread nD τ) scM fullShare d)
  | _ + 1 => owns (c : Thread nD τ) scM fullShare (scr m c)

theorem PhiS_zero (c : Dev nD) (n : ℕ) (hz : n = 0) :
    PhiS m c n = iprop(∃ d, owns (c : Thread nD τ) scM fullShare d) := by subst hz; rfl
theorem PhiS_succ (c : Dev nD) (n : ℕ) : PhiS m c (n + 1) = owns (c : Thread nD τ) scM fullShare (scr m c) := rfl
theorem PhiS_pos (c : Dev nD) (n : ℕ) (hz : n ≠ 0) : PhiS m c n = owns (c : Thread nD τ) scM fullShare (scr m c) := by
  cases n with
  | zero => exact absurd rfl hz
  | succ n => rfl

/-- The scoped buffers that are no staging buffer are the scratch alone. -/
theorem scopedRest_scratch (c : Dev nD) :
    (Pipeline.scopedRest spec0 c : sProp 𝕄) = iprop(∃ d, owns (c : Thread nD τ) scM fullShare d) := by
  rw [scopedRest0_eq]; simp only [scM, owns_whole]; try rfl

/-! ## The proof data -/

/-- After the body at point `t` every input buffer still holds its block and the output buffer `outAt`; the
    adjacency array is held in halves by windows 0 and 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

/-- An input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- The two small operands' blocks are the same at every point: their index maps are constant. -/
theorem iblk_2_const (c : Dev nD) (t : Fin cfg0.N) : iblk m c 2 t = iblk m c 2 t₀ := by
  unfold iblk; rfl
theorem iblk_3_const (c : Dev nD) (t : Fin cfg0.N) : iblk m c 3 t = iblk m c 3 t₀ := by
  unfold iblk; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 2000000 in
/-- The body at any point: at point 0 by `body_first`, elsewhere by `body_later`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [after_0, after_1, after_2, after_3, after_4]
  rw [show (dats m 0 c).Φ t.succ = PhiS m c (t.val + 1) from rfl, PhiS_succ,
    show (dats m 0 c).Φ t.castSucc = PhiS m c t.val from rfl]
  rw [iblk_2_const m c t, iblk_3_const m c t]
  unfold outAt scr
  by_cases hz : t.val = 0
  · rw [PhiS_zero m c _ hz]
    iintro ⟨HS, Ho, ⟨%d0, H0⟩, ⟨%d1, H1⟩, ⟨%d2, H2⟩, ⟨%d3, H3⟩, ⟨%d4, H4⟩⟩
    iapply (body_first c (grid0.coords t) ((isFirst_iff t).mpr hz) (ms0 t) (hs0 t) (ms1 t) (hs1 t) (ms2 t) (hs2 t) (ms3 t) (hs3 t)
      (ms4 t) (hs4 t) scM (Memref.isWhole_whole _) (iblk m c 0 t) (iblk m c 1 t) (iblk m c 2 t₀) (iblk m c 3 t₀) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexact H4
  · rw [PhiS_pos m c _ hz]
    unfold scr
    iintro ⟨HS, Ho, ⟨%d0, H0⟩, ⟨%d1, H1⟩, ⟨%d2, H2⟩, ⟨%d3, H3⟩, ⟨%d4, H4⟩⟩
    iapply (body_later c (grid0.coords t) (fun h => hz ((isFirst_iff t).mp h)) (ms0 t) (hs0 t) (ms1 t) (hs1 t) (ms2 t) (hs2 t) (ms3 t) (hs3 t)
      (ms4 t) (hs4 t) scM (Memref.isWhole_whole _) (iblk m c 0 t) (iblk m c 1 t) (iblk m c 2 t₀) (iblk m c 3 t₀)
      (scrOf (iblk m c 2 t₀) (iblk m c 3 t₀)) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- A window's array, held through its whole view at the window's share, is its buffer held at that share. -/
theorem arr_pt (c : Dev nD) (w : Fin cfg0.W) :
    ((((cfg0.win w).arr.view.loc (c : Thread nD τ)) ↦[(cfg0.win w).arr.view.set]{(dats m 0 c).share w} (dats m 0 c).arrAt w 0) : sProp 𝕄)
      = (((c : Thread nD τ).loc (Pipeline.arrRef spec0 w)) ↦{(dats m 0 c).share w} V m c (Pipeline.arrRef spec0 w)) := by
  rw [(arr_whole0 w).set_eq_univ]; rfl

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The four buffers behind the five windows' arrays, each at the full share, are the windows' arrays at their
    shares: the adjacency buffer's full share is the two halves its two windows hold. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0, bigSep_eq_bigSepL_of_eq [main_arg1, main_arg0, main_arg2, main_v0] (by decide) (by decide)]
  rw [arr_pt m c 0, arr_pt m c 1, arr_pt m c 2, arr_pt m c 3, arr_pt m c 4, share_0, share_1, share_2, share_3, share_4]
  show iprop((((c : Thread nD τ).loc main_arg1) ↦{fullShare} V m c main_arg1)
      ∗ (((c : Thread nD τ).loc main_arg0) ↦{fullShare} V m c main_arg0)
      ∗ (((c : Thread nD τ).loc main_arg2) ↦{fullShare} V m c main_arg2)
      ∗ (((c : Thread nD τ).loc main_v0) ↦{fullShare} V m c main_v0))
    ⊢ iprop((((c : Thread nD τ).loc main_arg1) ↦{fullShare.left} V m c main_arg1)
      ∗ (((c : Thread nD τ).loc main_arg1) ↦{fullShare.right} V m c main_arg1)
      ∗ (((c : Thread nD τ).loc main_arg0) ↦{fullShare} V m c main_arg0)
      ∗ (((c : Thread nD τ).loc main_arg2) ↦{fullShare} V m c main_arg2)
      ∗ (((c : Thread nD τ).loc main_v0) ↦{fullShare} V m c main_v0))
  iintro ⟨Hadj, H0, H2, Hv⟩
  ihave Hsp := (pointsTo_share (PosShare.mem_left_op_right fullShare)).1 $$ Hadj
  icases Hsp with ⟨Ha, Hb⟩
  isplitl [Ha]; · iexact Ha
  isplitl [Hb]; · iexact Hb
  isplitl [H0]; · iexact H0
  isplitl [H2]; · iexact H2
  iexact Hv

/-- What the launch hands the region is the invariant before the first point: the scratch at anything. -/
theorem hin (c : Dev nD) : iprop(emp ∗ Pipeline.scopedRest spec0 c) ⊢ (dats m 0 c).Φ 0 := by
  rw [show (dats m 0 c).Φ 0 = PhiS m c 0 from rfl, PhiS_zero m c 0 rfl, scopedRest_scratch]
  iintro ⟨-, H⟩; iexact H

/-- After the last point the invariant gives the scratch back, its contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val from rfl,
    PhiS_pos m c _ (by rw [Fin.val_last]; have : cfg0.N = 25 := N_0; omega), scopedRest_scratch]
  iintro H; isplitr; · iempintro
  iexists _; iexact H

/-- The run's post: every window's array holds what the write-backs left (an input: its entry contents). -/
def Final (r : PUnit × MemSt nD τ sig (Elt F)) : Prop :=
  ∀ (c : Dev nD) (w : Fin cfg0.W), r.2.mem (((cfg0).spec w).arr.view.loc (c.tc : Thread nD τ)) = (dats m 0 c).arrAt w cfg0.N

/-- From any memory with zero counters every weakly fair execution of @main terminates without a fault, every
    window's array ending at the proof data's final contents. -/
theorem run_main : θ_run defs (onTc (τ := τ) (main (F := F))) (s₀ m ρ) (Final m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- The frame: the run, read at the three argument arrays, each an input window's array and so unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c 2).trans (((dats m 0 c).arrAt_in 2 rfl _).trans (A_eq m c 2)),
     (h c 0).trans (((dats m 0 c).arrAt_in 0 rfl _).trans (A_eq m c 0)),
     (h c 3).trans (((dats m 0 c).arrAt_in 3 rfl _).trans (A_eq m c 3))⟩) (run_main m ρ)

/-- The same run with the result array named: it ends at the output window's final contents. -/
theorem run_result : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c 4,
     (h c 2).trans (((dats m 0 c).arrAt_in 2 rfl _).trans (A_eq m c 2)),
     (h c 0).trans (((dats m 0 c).arrAt_in 0 rfl _).trans (A_eq m c 0)),
     (h c 3).trans (((dats m 0 c).arrAt_in 3 rfl _).trans (A_eq m c 3))⟩) (run_main m ρ)

end Cert.Kernel.Hand

end
-- ==== Proof.IdealBody.lean ====
/-
  The kernel's body at one grid point, as a Hoare triple over whole staging buffers.

  At the first point the body fills the scratch with the product x·W (rounded to the scratch's format) and then,
  like every later point, reads that scratch back and writes two products into the two halves of the output
  block: rows 0..199 from the first adjacency block, rows 200..399 from the second. What it leaves is stated
  through the rectangles of its stores: the scratch holds `scrOf x w`, the output block `outBlk a0 a1 s`.
-/
import proofs.«154097_g60198261620747_cont_9to1c4b_559_7_alg».proof.Proof.Gen.KernelIdeal.Launch
import proofs.«154097_g60198261620747_cont_9to1c4b_559_7_alg».proof.Proof.Gen.KernelIdeal.Skeleton
import proofs.«154097_g60198261620747_cont_9to1c4b_559_7_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Rows 0..199 of the output block. -/
abbrev rLo : Rect S400x128 := Rect.unit (s := S400x128) ![0, 0] S200x128.size inb_S400x128_S200x128_0_0
/-- Rows 200..399 of the output block. -/
abbrev rHi : Rect S400x128 := Rect.unit (s := S400x128) ![200, 0] S200x128.size inb_S400x128_S200x128_200_0

/-- What the first point leaves in the scratch: the product of the two small operands, in the scratch's format. -/
def scrOf (x : Vec F S10000x128 .f32) (w : Vec F S128x128 .f32) : Vec F S10000x128 .bf16 := k0_pay1 x w

/-- What a point leaves in the output block: the second adjacency block's product over rows 200..399 laid over
    the first's over rows 0..199. -/
def outBlk (a0 a1 : Vec F S200x10000 .f32) (s : Vec F S10000x128 .bf16) : Vec F S400x128 .f32 :=
  View.canon [(⟨rHi, k0_pay3 a1 s⟩ : View.Piece (Elt F) S400x128 .f32), (⟨rLo, k0_pay2 a0 s⟩ : View.Piece (Elt F) S400x128 .f32)]

/-- The zero offsets of a whole-buffer rectangle, as a constant function. -/
theorem zeros2 : (![0, 0] : Fin 2 → ℕ) = fun _ => 0 := by funext a; fin_cases a <;> rfl

/-- The branch condition of the body: the grid coordinate is zero. -/
abbrev isFirst (i : grid0.Coords) : Prop :=
  (Scalar.cmpi .ne (Scalar.extui (Scalar.cmpi .eq (BitVec.ofNat 32 (i 0).val) 0#32)) 0#32) = 1#1

/-- It holds at point 0 and at no other point of the grid. -/
theorem isFirst_iff : ∀ t : Fin cfg0.N, isFirst (grid0.coords t) ↔ t.val = 0 :=
  (by decide +kernel : ∀ t : Fin grid0.N, isFirst (grid0.coords t) ↔ t.val = 0)

set_option maxHeartbeats 1000000 in
/-- The body at the first point: the scratch may hold anything; it ends holding `scrOf x w`. -/
theorem body_first (c : Dev nD) (i : grid0.Coords) (hc : isFirst i)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .bf16) (harg6 : arg6.IsWhole)
    (a0 a1 : Vec F S200x10000 .f32) (x : Vec F S10000x128 .f32) (w : Vec F S128x128 .f32)
    (E : Set ℕ) (K : PUnit → sProp 𝕄) :
    iprop(owns (c : Thread nD τ) arg1 fullShare a0 ∗ owns (c : Thread nD τ) arg2 fullShare a1
        ∗ owns (c : Thread nD τ) arg3 fullShare x ∗ owns (c : Thread nD τ) arg4 fullShare w
        ∗ (∃ d, owns (c : Thread nD τ) arg5 fullShare d) ∗ (∃ d, owns (c : Thread nD τ) arg6 fullShare d)
        ∗ (iprop(owns (c : Thread nD τ) arg1 fullShare a0 ∗ owns (c : Thread nD τ) arg2 fullShare a1
            ∗ owns (c : Thread nD τ) arg3 fullShare x ∗ owns (c : Thread nD τ) arg4 fullShare w
            ∗ owns (c : Thread nD τ) arg5 fullShare (outBlk a0 a1 (scrOf x w))
            ∗ owns (c : Thread nD τ) arg6 fullShare (scrOf x w)) -∗ K ⟨⟩))
      ⊢ wp frame (wpE (defs₀ (F := F)) Variants.none c none) E
          (cc0__fused_body i arg1 harg1 arg2 harg2 arg3 harg3 arg4 harg4 arg5 harg5 arg6 harg6) K := by
  simp only [cc0__fused_body_eq_skeleton]; unfold cc0__fused_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2
  obtain rfl := harg3.eq_unread hf3; obtain rfl := harg4.eq_unread hf4
  sl_exec (disch := exact hc)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    swap; · iexact H5
    ipureintro
    rw [View.read_writes_eq_canon _ _ _ (View.cover_of_tiledL (s := S400x128) _ S200x128.size (by sl_kernel_rfl))]
    unfold outBlk scrOf
    sl_unfold_words
    simp only [View.readAt_eq_ld, hf1, hf2, hf3, hf4, View.ld_unit_zero (S := S200x10000) zeros2,
      View.ld_unit_zero (S := S10000x128) zeros2, View.ld_unit_zero (S := S128x128) zeros2,
      View.readCov_unit_zero (S := S10000x128) _ zeros2]
  · iexists _; isplitr
    swap; · iexact H6
    ipureintro
    sl_unfold_words
    unfold scrOf
    rw [View.read_writes_eq_canon _ _ _ (View.cover_of_tiledL (s := S10000x128) _ S10000x128.size (by sl_kernel_rfl)),
      View.canon_unit_zero (S := S10000x128) zeros2]
    simp only [View.readAt_eq_ld, hf3, hf4, View.ld_unit_zero (S := S10000x128) zeros2, View.ld_unit_zero (S := S128x128) zeros2]

set_option maxHeartbeats 1000000 in
/-- The body at a later point: the scratch holds `s` and is only read; it is handed back unchanged. -/
theorem body_later (c : Dev nD) (i : grid0.Coords) (hc : ¬isFirst i)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S400x128 .f32) (harg5 : arg5.IsWhole) (arg6 : Memref sig .tc .vmem S10000x128 .bf16) (harg6 : arg6.IsWhole)
    (a0 a1 : Vec F S200x10000 .f32) (x : Vec F S10000x128 .f32) (w : Vec F S128x128 .f32) (s : Vec F S10000x128 .bf16)
    (E : Set ℕ) (K : PUnit → sProp 𝕄) :
    iprop(owns (c : Thread nD τ) arg1 fullShare a0 ∗ owns (c : Thread nD τ) arg2 fullShare a1
        ∗ owns (c : Thread nD τ) arg3 fullShare x ∗ owns (c : Thread nD τ) arg4 fullShare w
        ∗ (∃ d, owns (c : Thread nD τ) arg5 fullShare d) ∗ owns (c : Thread nD τ) arg6 fullShare s
        ∗ (iprop(owns (c : Thread nD τ) arg1 fullShare a0 ∗ owns (c : Thread nD τ) arg2 fullShare a1
            ∗ owns (c : Thread nD τ) arg3 fullShare x ∗ owns (c : Thread nD τ) arg4 fullShare w
            ∗ owns (c : Thread nD τ) arg5 fullShare (outBlk a0 a1 s)
            ∗ owns (c : Thread nD τ) arg6 fullShare s) -∗ K ⟨⟩))
      ⊢ wp frame (wpE (defs₀ (F := F)) Variants.none c none) E
          (cc0__fused_body i arg1 harg1 arg2 harg2 arg3 harg3 arg4 harg4 arg5 harg5 arg6 harg6) K := by
  simp only [cc0__fused_body_eq_skeleton]; unfold cc0__fused_body_skel
  unfold owns
  iintro ⟨⟨%f1, %hf1, H1⟩, ⟨%f2, %hf2, H2⟩, H3, H4, ⟨%d5, %f5, -, H5⟩, ⟨%f6, %hf6, H6⟩, Hk⟩
  obtain rfl := harg1.eq_unread hf1; obtain rfl := harg2.eq_unread hf2
  obtain rfl := harg6.eq_unread hf6
  sl_exec (disch := exact hc)
  sl_step
  iapply Hk
  isplitl [H1]
  · iexists _; isplitr
    · ipureintro; exact harg1.read_unread _
    iexact H1
  isplitl [H2]
  · iexists _; isplitr
    · ipureintro; exact harg2.read_unread _
    iexact H2
  isplitl [H3]; · iexact H3
  isplitl [H4]; · iexact H4
  isplitl [H5]
  · iexists _; isplitr
    swap; · iexact H5
    ipureintro
    rw [View.read_writes_eq_canon _ _ _ (View.cover_of_tiledL (s := S400x128) _ S200x128.size (by sl_kernel_rfl))]
    unfold outBlk
    sl_unfold_words
    simp only [View.readAt_eq_ld, hf1, hf2, hf6, View.ld_unit_zero (S := S200x10000) zeros2,
      View.ld_unit_zero (S := S10000x128) zeros2]
  · iexists _; isplitr
    · ipureintro; exact harg6.read_unread _
    iexact H6

end Cert.KernelIdeal.Hand

end
-- ==== Proof.IdealFrame.lean ====
/-
  The frame of the kernel's one pipelined region: every weakly fair execution terminates without a fault, the
  three argument arrays end as they began, and the result array ends at what the write-backs left.

  The adjacency array feeds two windows (block 2t and block 2t+1 at point t), so its buffer is held in two half
  shares, one per window, for the whole run. The scratch is filled at point 0 and only read afterwards: the
  invariant before point n > 0 says it holds the product of the two small operands.
-/
import proofs.«154097_g60198261620747_cont_9to1c4b_559_7_alg».proof.Proof.IdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- A buffer's contents when the region is entered: no host operation precedes it, so the launch contents. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t₀ : Fin cfg0.N := ⟨0, by decide⟩

/-- What the scratch holds from the first point on: the product of the two small operands' (whole) blocks. -/
def scr (c : Dev nD) : Vec F S10000x128 .bf16 := scrOf (iblk m c 2 t₀) (iblk m c 3 t₀)

/-- What point `t` leaves in the output block. -/
def outAt (c : Dev nD) (t : Fin cfg0.N) : Vec F S400x128 .f32 := outBlk (iblk m c 0 t) (iblk m c 1 t) (scr m c)

/-- The staging memrefs at a point, as the pipeline passes them, and the scratch. -/
abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x128 .f32 := win0_4.stage (cfg0.slots t 4)
abbrev hs4 (t : Fin cfg0.N) : (ms4 t).IsWhole := hstage0_4 ((cfg0.slots t 4).cast nbuf0_4)
abbrev scM : Memref sig .tc .vmem S10000x128 .bf16 := Memref.whole cc0_scratch0

/-! ## The invariant -/

/-- Before point `n`: at the first point the scratch holds anything; afterwards the product. -/
def PhiS (c : Dev nD) : ℕ → sProp 𝕄
  | 0 => iprop(∃ d, owns (c : Thread nD τ) scM fullShare d)
  | _ + 1 => owns (c : Thread nD τ) scM fullShare (scr m c)

theorem PhiS_zero (c : Dev nD) (n : ℕ) (hz : n = 0) :
    PhiS m c n = iprop(∃ d, owns (c : Thread nD τ) scM fullShare d) := by subst hz; rfl
theorem PhiS_succ (c : Dev nD) (n : ℕ) : PhiS m c (n + 1) = owns (c : Thread nD τ) scM fullShare (scr m c) := rfl
theorem PhiS_pos (c : Dev nD) (n : ℕ) (hz : n ≠ 0) : PhiS m c n = owns (c : Thread nD τ) scM fullShare (scr m c) := by
  cases n with
  | zero => exact absurd rfl hz
  | succ n => rfl

/-- The scoped buffers that are no staging buffer are the scratch alone. -/
theorem scopedRest_scratch (c : Dev nD) :
    (Pipeline.scopedRest spec0 c : sProp 𝕄) = iprop(∃ d, owns (c : Thread nD τ) scM fullShare d) := by
  rw [scopedRest0_eq]; simp only [scM, owns_whole]; try rfl

/-! ## The proof data -/

/-- After the body at point `t` every input buffer still holds its block and the output buffer `outAt`; the
    adjacency array is held in halves by windows 0 and 1. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outAt m c t := by dsimp only [dats]

/-- An input's current staging buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- The two small operands' blocks are the same at every point: their index maps are constant. -/
theorem iblk_2_const (c : Dev nD) (t : Fin cfg0.N) : iblk m c 2 t = iblk m c 2 t₀ := by
  unfold iblk; rfl
theorem iblk_3_const (c : Dev nD) (t : Fin cfg0.N) : iblk m c 3 t = iblk m c 3 t₀ := by
  unfold iblk; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 2000000 in
/-- The body at any point: at point 0 by `body_first`, elsewhere by `body_later`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [after_0, after_1, after_2, after_3, after_4]
  rw [show (dats m 0 c).Φ t.succ = PhiS m c (t.val + 1) from rfl, PhiS_succ,
    show (dats m 0 c).Φ t.castSucc = PhiS m c t.val from rfl]
  rw [iblk_2_const m c t, iblk_3_const m c t]
  unfold outAt scr
  by_cases hz : t.val = 0
  · rw [PhiS_zero m c _ hz]
    iintro ⟨HS, Ho, ⟨%d0, H0⟩, ⟨%d1, H1⟩, ⟨%d2, H2⟩, ⟨%d3, H3⟩, ⟨%d4, H4⟩⟩
    iapply (body_first c (grid0.coords t) ((isFirst_iff t).mpr hz) (ms0 t) (hs0 t) (ms1 t) (hs1 t) (ms2 t) (hs2 t) (ms3 t) (hs3 t)
      (ms4 t) (hs4 t) scM (Memref.isWhole_whole _) (iblk m c 0 t) (iblk m c 1 t) (iblk m c 2 t₀) (iblk m c 3 t₀) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexact H4
  · rw [PhiS_pos m c _ hz]
    unfold scr
    iintro ⟨HS, Ho, ⟨%d0, H0⟩, ⟨%d1, H1⟩, ⟨%d2, H2⟩, ⟨%d3, H3⟩, ⟨%d4, H4⟩⟩
    iapply (body_later c (grid0.coords t) (fun h => hz ((isFirst_iff t).mp h)) (ms0 t) (hs0 t) (ms1 t) (hs1 t) (ms2 t) (hs2 t) (ms3 t) (hs3 t)
      (ms4 t) (hs4 t) scM (Memref.isWhole_whole _) (iblk m c 0 t) (iblk m c 1 t) (iblk m c 2 t₀) (iblk m c 3 t₀)
      (scrOf (iblk m c 2 t₀) (iblk m c 3 t₀)) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- A window's array, held through its whole view at the window's share, is its buffer held at that share. -/
theorem arr_pt (c : Dev nD) (w : Fin cfg0.W) :
    ((((cfg0.win w).arr.view.loc (c : Thread nD τ)) ↦[(cfg0.win w).arr.view.set]{(dats m 0 c).share w} (dats m 0 c).arrAt w 0) : sProp 𝕄)
      = (((c : Thread nD τ).loc (Pipeline.arrRef spec0 w)) ↦{(dats m 0 c).share w} V m c (Pipeline.arrRef spec0 w)) := by
  rw [(arr_whole0 w).set_eq_univ]; rfl

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The four buffers behind the five windows' arrays, each at the full share, are the windows' arrays at their
    shares: the adjacency buffer's full share is the two halves its two windows hold. -/
theorem hsplit (c : Dev nD) :
    (Pipeline.arrBufs spec0 c (V m c) : sProp 𝕄) ⊢ (dats m 0 c).arrays ((dats m 0 c).arrAt · 0) := by
  unfold Pipeline.arrBufs Dat.arrays
  rw [bigSep_W0, bigSep_eq_bigSepL_of_eq [main_arg1, main_arg0, main_arg2, main_v0] (by decide) (by decide)]
  rw [arr_pt m c 0, arr_pt m c 1, arr_pt m c 2, arr_pt m c 3, arr_pt m c 4, share_0, share_1, share_2, share_3, share_4]
  show iprop((((c : Thread nD τ).loc main_arg1) ↦{fullShare} V m c main_arg1)
      ∗ (((c : Thread nD τ).loc main_arg0) ↦{fullShare} V m c main_arg0)
      ∗ (((c : Thread nD τ).loc main_arg2) ↦{fullShare} V m c main_arg2)
      ∗ (((c : Thread nD τ).loc main_v0) ↦{fullShare} V m c main_v0))
    ⊢ iprop((((c : Thread nD τ).loc main_arg1) ↦{fullShare.left} V m c main_arg1)
      ∗ (((c : Thread nD τ).loc main_arg1) ↦{fullShare.right} V m c main_arg1)
      ∗ (((c : Thread nD τ).loc main_arg0) ↦{fullShare} V m c main_arg0)
      ∗ (((c : Thread nD τ).loc main_arg2) ↦{fullShare} V m c main_arg2)
      ∗ (((c : Thread nD τ).loc main_v0) ↦{fullShare} V m c main_v0))
  iintro ⟨Hadj, H0, H2, Hv⟩
  ihave Hsp := (pointsTo_share (PosShare.mem_left_op_right fullShare)).1 $$ Hadj
  icases Hsp with ⟨Ha, Hb⟩
  isplitl [Ha]; · iexact Ha
  isplitl [Hb]; · iexact Hb
  isplitl [H0]; · iexact H0
  isplitl [H2]; · iexact H2
  iexact Hv

/-- What the launch hands the region is the invariant before the first point: the scratch at anything. -/
theorem hin (c : Dev nD) : iprop(emp ∗ Pipeline.scopedRest spec0 c) ⊢ (dats m 0 c).Φ 0 := by
  rw [show (dats m 0 c).Φ 0 = PhiS m c 0 from rfl, PhiS_zero m c 0 rfl, scopedRest_scratch]
  iintro ⟨-, H⟩; iexact H

/-- After the last point the invariant gives the scratch back, its contents forgotten. -/
theorem hout (c : Dev nD) : (dats m 0 c).Φ (Fin.last cfg0.N) ⊢ iprop(emp ∗ Pipeline.scopedRest spec0 c) := by
  rw [show (dats m 0 c).Φ (Fin.last cfg0.N) = PhiS m c (Fin.last cfg0.N).val from rfl,
    PhiS_pos m c _ (by rw [Fin.val_last]; have : cfg0.N = 25 := N_0; omega), scopedRest_scratch]
  iintro H; isplitr; · iempintro
  iexists _; iexact H

/-- The run's post: every window's array holds what the write-backs left (an input: its entry contents). -/
def Final (r : PUnit × MemSt nD τ sig (Elt F)) : Prop :=
  ∀ (c : Dev nD) (w : Fin cfg0.W), r.2.mem (((cfg0).spec w).arr.view.loc (c.tc : Thread nD τ)) = (dats m 0 c).arrAt w cfg0.N

/-- From any memory with zero counters every weakly fair execution of @main terminates without a fault, every
    window's array ending at the proof data's final contents. -/
theorem run_main : θ_run defs (onTc (τ := τ) (main (F := F))) (s₀ m ρ) (Final m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m)
    (hmain := fun c Q => by
      simp only [main, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := hin m) (hout := hout m)
    (QY := fun _ _ => True)
    (hY := fun c s' => by
      iintro ⟨-, -, HSI⟩; imodintro
      isplitr; · ipureintro; trivial
      iexact HSI)
    (hQ := fun _ h c w => (h c).1 w)

/-- The frame: the run, read at the three argument arrays, each an input window's array and so unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c 2).trans (((dats m 0 c).arrAt_in 2 rfl _).trans (A_eq m c 2)),
     (h c 0).trans (((dats m 0 c).arrAt_in 0 rfl _).trans (A_eq m c 0)),
     (h c 3).trans (((dats m 0 c).arrAt_in 3 rfl _).trans (A_eq m c 3))⟩) (run_main m ρ)

/-- The same run with the result array named: it ends at the output window's final contents. -/
theorem run_result : θ_run defs (onTc (τ := τ) (main (F := F))) ⟨m, fun _ => 0, ρ⟩ (fun r => ∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨h c 4,
     (h c 2).trans (((dats m 0 c).arrAt_in 2 rfl _).trans (A_eq m c 2)),
     (h c 0).trans (((dats m 0 c).arrAt_in 0 rfl _).trans (A_eq m c 0)),
     (h c 3).trans (((dats m 0 c).arrAt_in 3 rfl _).trans (A_eq m c 3))⟩) (run_main m ρ)

end Cert.KernelIdeal.Hand

end
-- ==== Proof.IdealPayloads.lean ====
/-
  The body's three products read at an entry, over the extended reals.

  Each product is a matrix product into a zero accumulator, so an entry is a plain sum over the contracted axis:
  the scratch's entry (k, q) is the sum over j of x(k, j)·W(j, q); an output half's entry (p, q) is the sum over k of
  a(p, k)·s(k, q). The change of float format before and after the products is the identity on the extended reals.
-/
import proofs.«154097_g60198261620747_cont_9to1c4b_559_7_alg».proof.Proof.IdealBody
import Idealize.ShloMosaic.Lib.ValueIdx
import Idealize.ShloMosaic.PureOps.Ideal.Laws
import Idealize.ShloMosaic.Lib.Pipeline.Value

set_option maxRecDepth 16384

noncomputable section

namespace Cert.KernelIdeal.Hand

open Idealize.ShloMosaic Idealize.ShloMosaic.ValueIdx
open Cert.KernelIdeal Cert.KernelIdeal.Gen

/-- The record of the 200×10000 by 10000×128 product. -/
abbrev dBlk : DotDims S200x10000 S10000x128 S200x128 := dot_S200x10000_S10000x128_S200x128_1_0_0_1_n_n
/-- The record of the 10000×128 by 128×128 product. -/
abbrev dSup : DotDims S10000x128 S128x128 S10000x128 := dot_S10000x128_S128x128_S10000x128_1_0_0_1_n_n

theorem dBlk_lhs0 (i : S200x128.Idx) (q : dBlk.contr.Idx) : (dBlk.lhsIdx i q 0).val = (i 0).val := by
  unfold DotDims.lhsIdx
  rw [dif_neg (show ¬(0 : Fin S200x10000.rank) ∈ dBlk.lhsBatch by decide), dif_pos (show (0 : Fin S200x10000.rank) ∈ dBlk.lhsNonContracting by decide)]
  rfl
theorem dBlk_rhs1 (i : S200x128.Idx) (q : dBlk.contr.Idx) : (dBlk.rhsIdx i q 1).val = (i 1).val := by
  unfold DotDims.rhsIdx
  rw [dif_neg (show ¬(1 : Fin S10000x128.rank) ∈ dBlk.rhsBatch by decide), dif_pos (show (1 : Fin S10000x128.rank) ∈ dBlk.rhsNonContracting by decide)]
  rfl

/-- A 200-row block times the scratch, into a zero accumulator, at entry (p, q): the sum over the 10000 columns. -/
theorem blockProd_apply (a : FVec Ideal S200x10000 .bf16) (s : FVec Ideal S10000x128 .bf16) (p : Fin 200) (q : Fin 128) :
    FloatOps.matmul dBlk none a s (constant (F := Ideal) S200x128 .f32 0x00000000#32) (ix2 p q)
      = ∑ k : Fin 10000, a (ix2 p k) * s (ix2 k q) := by
  refine (Ideal.matmul_constant_zero_apply dBlk none a s (ix2 p q)).trans ?_
  rw [← Equiv.sum_comp (ValueIdx.contrEquiv1 dBlk 10000 rfl rfl).symm]
  refine Finset.sum_congr rfl fun k _ => ?_
  have hk := ValueIdx.contrEquiv1_symm_val dBlk 10000 rfl rfl k
  have el : dBlk.lhsIdx (ix2 p q) ((ValueIdx.contrEquiv1 dBlk 10000 rfl rfl).symm k) = ix2 p k := funext fun d => Fin.ext (by
    match d with
    | ⟨0, _⟩ => exact dBlk_lhs0 _ _
    | ⟨1, _⟩ => exact (dBlk.lhsIdx_val_of_single rfl _ _).trans hk)
  have er : dBlk.rhsIdx (ix2 p q) ((ValueIdx.contrEquiv1 dBlk 10000 rfl rfl).symm k) = ix2 k q := funext fun d => Fin.ext (by
    match d with
    | ⟨0, _⟩ => exact (dBlk.rhsIdx_val_of_single rfl _ _).trans hk
    | ⟨1, _⟩ => exact dBlk_rhs1 _ _)
  rw [el, er]

theorem dSup_lhs0 (i : S10000x128.Idx) (q : dSup.contr.Idx) : (dSup.lhsIdx i q 0).val = (i 0).val := by
  unfold DotDims.lhsIdx
  rw [dif_neg (show ¬(0 : Fin S10000x128.rank) ∈ dSup.lhsBatch by decide), dif_pos (show (0 : Fin S10000x128.rank) ∈ dSup.lhsNonContracting by decide)]
  rfl
theorem dSup_rhs1 (i : S10000x128.Idx) (q : dSup.contr.Idx) : (dSup.rhsIdx i q 1).val = (i 1).val := by
  unfold DotDims.rhsIdx
  rw [dif_neg (show ¬(1 : Fin S128x128.rank) ∈ dSup.rhsBatch by decide), dif_pos (show (1 : Fin S128x128.rank) ∈ dSup.rhsNonContracting by decide)]
  rfl

/-- The small operands' product, into a zero accumulator, at entry (k, q): the sum over the 128 inner columns. -/
theorem supProd_apply (x : FVec Ideal S10000x128 .f32) (w : FVec Ideal S128x128 .f32) (k : Fin 10000) (q : Fin 128) :
    FloatOps.matmul dSup none x w (constant (F := Ideal) S10000x128 .f32 0x00000000#32) (ix2 k q)
      = ∑ j : Fin 128, x (ix2 k j) * w (ix2 j q) := by
  refine (Ideal.matmul_constant_zero_apply dSup none x w (ix2 k q)).trans ?_
  rw [← Equiv.sum_comp (ValueIdx.contrEquiv1 dSup 128 rfl rfl).symm]
  refine Finset.sum_congr rfl fun j _ => ?_
  have hj := ValueIdx.contrEquiv1_symm_val dSup 128 rfl rfl j
  have el : dSup.lhsIdx (ix2 k q) ((ValueIdx.contrEquiv1 dSup 128 rfl rfl).symm j) = ix2 k j := funext fun d => Fin.ext (by
    match d with
    | ⟨0, _⟩ => exact dSup_lhs0 _ _
    | ⟨1, _⟩ => exact (dSup.lhsIdx_val_of_single rfl _ _).trans hj)
  have er : dSup.rhsIdx (ix2 k q) ((ValueIdx.contrEquiv1 dSup 128 rfl rfl).symm j) = ix2 j q := funext fun d => Fin.ext (by
    match d with
    | ⟨0, _⟩ => exact (dSup.rhsIdx_val_of_single rfl _ _).trans hj
    | ⟨1, _⟩ => exact dSup_rhs1 _ _)
  rw [el, er]

/-- The scratch's entry (k, q): the format change and the shape cast to the same shape are identities. -/
theorem scrOf_apply (x : FVec Ideal S10000x128 .f32) (w : FVec Ideal S128x128 .f32) (k : Fin 10000) (q : Fin 128) :
    scrOf (F := Ideal) x w (ix2 k q) = ∑ j : Fin 128, x (ix2 k j) * w (ix2 j q) := by
  unfold scrOf k0_pay1
  rw [shapeCast_self]
  exact supProd_apply x w k q

/-- The lower half's payload at entry (p, q). -/
theorem pay2_apply (a : FVec Ideal S200x10000 .f32) (s : FVec Ideal S10000x128 .bf16) (p : Fin 200) (q : Fin 128) :
    k0_pay2 (F := Ideal) a s (ix2 p q) = ∑ k : Fin 10000, a (ix2 p k) * s (ix2 k q) :=
  blockProd_apply a s p q
/-- The upper half's payload at entry (p, q). -/
theorem pay3_apply (a : FVec Ideal S200x10000 .f32) (s : FVec Ideal S10000x128 .bf16) (p : Fin 200) (q : Fin 128) :
    k0_pay3 (F := Ideal) a s (ix2 p q) = ∑ k : Fin 10000, a (ix2 p k) * s (ix2 k q) :=
  blockProd_apply a s p q

/-- The output block at a row below 200: the first adjacency block's product. -/
theorem outBlk_lo (a0 a1 : FVec Ideal S200x10000 .f32) (s : FVec Ideal S10000x128 .bf16) (p : Fin 400) (q : Fin 128) (h : p.val < 200) :
    outBlk (F := Ideal) a0 a1 s (ix2 p q) = ∑ k : Fin 10000, a0 (ix2 (⟨p.val, h⟩ : Fin 200) k) * s (ix2 k q) := by
  unfold outBlk
  have hn : (ix2 p q : S400x128.Idx) ∉ (rHi).set := by
    rw [Rect.mem_set_unit]
    intro hm
    have h1 : 200 ≤ p.val := (hm 0).1
    omega
  refine (View.canon_cons_of_not_mem (⟨rHi, k0_pay3 (F := Ideal) a1 s⟩ : View.Piece (Elt Ideal) S400x128 .f32)
    [(⟨rLo, k0_pay2 (F := Ideal) a0 s⟩ : View.Piece (Elt Ideal) S400x128 .f32)] hn).trans ?_
  have e : (ix2 p q : S400x128.Idx) = rLo.emb (ix2 (⟨p.val, h⟩ : Fin 200) q) := funext fun d => Fin.ext (by
    match d with
    | ⟨0, _⟩ => show p.val = 0 + 1 * p.val; omega
    | ⟨1, _⟩ => show q.val = 0 + 1 * q.val; omega)
  rw [e, View.canon_cons_emb]
  exact pay2_apply a0 s ⟨p.val, h⟩ q

/-- The output block at a row from 200 on: the second adjacency block's product, 200 rows down. -/
theorem outBlk_hi (a0 a1 : FVec Ideal S200x10000 .f32) (s : FVec Ideal S10000x128 .bf16) (p : Fin 400) (q : Fin 128) (h : 200 ≤ p.val) :
    outBlk (F := Ideal) a0 a1 s (ix2 p q)
      = ∑ k : Fin 10000, a1 (ix2 (⟨p.val - 200, by have := p.isLt; omega⟩ : Fin 200) k) * s (ix2 k q) := by
  unfold outBlk
  have e : (ix2 p q : S400x128.Idx) = rHi.emb (ix2 (⟨p.val - 200, by have := p.isLt; omega⟩ : Fin 200) q) := funext fun d => Fin.ext (by
    match d with
    | ⟨0, _⟩ => show p.val = 200 + 1 * (p.val - 200); omega
    | ⟨1, _⟩ => show q.val = 0 + 1 * q.val; omega)
  rw [e, View.canon_cons_emb]
  exact pay3_apply a1 s ⟨p.val - 200, by have := p.isLt; omega⟩ q

end Cert.KernelIdeal.Hand

end
-- ==== Proof.Spec.lean ====
/-
  The specification both programs meet over the extended reals: the graph-convolution layer adj·(x·W).

  Entry (p, q) is the sum over the 10000 nodes k of adj(p, k) times the support's entry (k, q), and the support's
  entry is the sum over the 128 input features j of x(k, j)·W(j, q). No law of the extended reals is needed to join
  the two programs: both compute exactly this nesting of sums.
-/
import Idealize.ShloMosaic.Lib.ValueIdx
import Idealize.ShloMosaic.PureOps.Ideal

noncomputable section

namespace Cert.Spec

open Idealize.ShloMosaic Idealize.ShloMosaic.ValueIdx

/-- Entry (p, q) of adj·(x·W). -/
def conv (x : (⟨2, ![10000, 128]⟩ : Shape).Idx → EReal) (a : (⟨2, ![10000, 10000]⟩ : Shape).Idx → EReal)
    (w : (⟨2, ![128, 128]⟩ : Shape).Idx → EReal) (p : Fin 10000) (q : Fin 128) : EReal :=
  ∑ k : Fin 10000, a (ix2 p k) * ∑ j : Fin 128, x (ix2 k j) * w (ix2 j q)

/-- adj·(x·W) as an array. -/
def G (x : (⟨2, ![10000, 128]⟩ : Shape).Idx → EReal) (a : (⟨2, ![10000, 10000]⟩ : Shape).Idx → EReal)
    (w : (⟨2, ![128, 128]⟩ : Shape).Idx → EReal) : (⟨2, ![10000, 128]⟩ : Shape).Idx → EReal :=
  fun i => conv x a w (i 0) (i 1)

end Cert.Spec

end
-- ==== Proof.IdealValue.lean ====
/-
  What the kernel's result array holds after the run, at the extended reals: entry (r, c) is the sum over k of
  adj(r, k) times the sum over j of x(k, j)·W(j, c).

  Point t writes back rows 400t..400t+399. Its first 200 rows come from adjacency block 2t, the next 200 from block
  2t+1, so row p of the block reads adjacency row 400t + p either way. The scratch is the product of the two small
  operands, whose blocks are their whole arrays. The 25 blocks tile the 10000 rows.
-/
import proofs.«154097_g60198261620747_cont_9to1c4b_559_7_alg».proof.Proof.IdealFrame
import proofs.«154097_g60198261620747_cont_9to1c4b_559_7_alg».proof.Proof.IdealPayloads
import proofs.«154097_g60198261620747_cont_9to1c4b_559_7_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Spec (conv G)

variable (m : (ℓ : Loc nD τ sig) → Buf (Elt Ideal) ℓ) (ρ : Dev nD → PrngReg)

/-- The windows' block indices at each point, decided over the grid. -/
theorem idx_facts : ∀ t : Fin cfg0.N,
    win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 25 := lt_of_lt_of_eq t.isLt N_0

/-- The three argument arrays as the region finds them, as arrays of extended reals. -/
abbrev argX (c : Dev nD) : S10000x128.Idx → EReal := V m c main_arg0
abbrev argA (c : Dev nD) : S10000x10000.Idx → EReal := V m c main_arg1
abbrev argW (c : Dev nD) : S128x128.Idx → EReal := V m c main_arg2

/-- Row p of adjacency block 2t is adjacency row 400t + p. -/
theorem iblk0_apply (c : Dev nD) (t : Fin cfg0.N) (p : Fin 200) (k : Fin 10000) :
    iblk m c 0 t (ix2 p k)
      = argA m c (ix2 (⟨t.val * 400 + p.val, by have := t_lt t; have := p.isLt; omega⟩ : Fin 10000) k) := by
  show V m c main_arg1 (((cfg0.win 0).blk t).view.emb (ix2 p k)) = _
  refine congrArg _ (funext fun d => Fin.ext ?_)
  obtain ⟨e0, e1, -⟩ := idx_facts t
  match d with
  | ⟨0, _⟩ => show win0_0.index t (0 : Fin 2) * 200 + 1 * p.val = t.val * 400 + p.val; rw [e0]; omega
  | ⟨1, _⟩ => show win0_0.index t (1 : Fin 2) * 10000 + 1 * k.val = k.val; rw [e1]; omega

/-- Row p of adjacency block 2t+1 is adjacency row 400t + 200 + p. -/
theorem iblk1_apply (c : Dev nD) (t : Fin cfg0.N) (p : Fin 200) (k : Fin 10000) :
    iblk m c 1 t (ix2 p k)
      = argA m c (ix2 (⟨t.val * 400 + 200 + p.val, by have := t_lt t; have := p.isLt; omega⟩ : Fin 10000) k) := by
  show V m c main_arg1 (((cfg0.win 1).blk t).view.emb (ix2 p k)) = _
  refine congrArg _ (funext fun d => Fin.ext ?_)
  obtain ⟨-, -, e0, e1, -⟩ := idx_facts t
  match d with
  | ⟨0, _⟩ => show win0_1.index t (0 : Fin 2) * 200 + 1 * p.val = t.val * 400 + 200 + p.val; rw [e0]; omega
  | ⟨1, _⟩ => show win0_1.index t (1 : Fin 2) * 10000 + 1 * k.val = k.val; rw [e1]; omega

/-- The first small operand's block is its whole array. -/
theorem iblk2_apply (c : Dev nD) (t : Fin cfg0.N) (k : Fin 10000) (j : Fin 128) :
    iblk m c 2 t (ix2 k j) = argX m c (ix2 k j) := by
  show V m c main_arg0 (((cfg0.win 2).blk t).view.emb (ix2 k j)) = _
  refine congrArg _ (funext fun d => Fin.ext ?_)
  obtain ⟨-, -, -, -, e0, e1, -⟩ := idx_facts t
  match d with
  | ⟨0, _⟩ => show win0_2.index t (0 : Fin 2) * 10000 + 1 * k.val = k.val; rw [e0]; omega
  | ⟨1, _⟩ => show win0_2.index t (1 : Fin 2) * 128 + 1 * j.val = j.val; rw [e1]; omega

/-- The second small operand's block is its whole array. -/
theorem iblk3_apply (c : Dev nD) (t : Fin cfg0.N) (j : Fin 128) (q : Fin 128) :
    iblk m c 3 t (ix2 j q) = argW m c (ix2 j q) := by
  show V m c main_arg2 (((cfg0.win 3).blk t).view.emb (ix2 j q)) = _
  refine congrArg _ (funext fun d => Fin.ext ?_)
  obtain ⟨-, -, -, -, -, -, e0, e1, -⟩ := idx_facts t
  match d with
  | ⟨0, _⟩ => show win0_3.index t (0 : Fin 2) * 128 + 1 * j.val = j.val; rw [e0]; omega
  | ⟨1, _⟩ => show win0_3.index t (1 : Fin 2) * 128 + 1 * q.val = q.val; rw [e1]; omega

/-- The scratch's entry (k, q) in terms of the argument arrays. -/
theorem scr_apply (c : Dev nD) (k : Fin 10000) (q : Fin 128) :
    scr m c (ix2 k q) = ∑ j : Fin 128, argX m c (ix2 k j) * argW m c (ix2 j q) := by
  unfold scr
  refine (scrOf_apply (iblk m c 2 t₀) (iblk m c 3 t₀) k q).trans ?_
  refine Finset.sum_congr rfl fun j _ => ?_
  rw [iblk2_apply, iblk3_apply]

/-- What point t leaves in the output block, at entry (p, q): entry (400t + p, q) of adj·(x·W). -/
theorem outAt_apply (c : Dev nD) (t : Fin cfg0.N) (p : Fin 400) (q : Fin 128) :
    outAt m c t (ix2 p q)
      = conv (argX m c) (argA m c) (argW m c)
          (⟨t.val * 400 + p.val, by have := t_lt t; have := p.isLt; omega⟩ : Fin 10000) q := by
  unfold outAt Cert.Spec.conv
  by_cases h : p.val < 200
  · refine (outBlk_lo (iblk m c 0 t) (iblk m c 1 t) (scr m c) p q h).trans ?_
    refine Finset.sum_congr rfl fun k _ => ?_
    rw [iblk0_apply, scr_apply]
  · have h' : 200 ≤ p.val := Nat.le_of_not_lt h
    refine (outBlk_hi (iblk m c 0 t) (iblk m c 1 t) (scr m c) p q h').trans ?_
    refine Finset.sum_congr rfl fun k _ => ?_
    rw [iblk1_apply, scr_apply]
    have e : (⟨t.val * 400 + 200 + (p.val - 200), by have := t_lt t; have := p.isLt; omega⟩ : Fin 10000)
        = ⟨t.val * 400 + p.val, by have := t_lt t; have := p.isLt; omega⟩ := Fin.ext (by show t.val * 400 + 200 + (p.val - 200) = t.val * 400 + p.val; omega)
    rw [e]

/-- What point t writes back is block t of adj·(x·W). -/
theorem flushed_eq (c : Dev nD) (t : Fin cfg0.N) :
    (dats m 0 c).flushed 4 t = ((cfg0.win 4).blk t).view.read (Elt Ideal) (G (argX m c) (argA m c) (argW m c)) := by
  show (cfg0.win 4).cut (grid0.coords t) ((dats m 0 c).after 4 t) = _
  rw [after_4]
  funext j
  obtain ⟨p, q, rfl⟩ : ∃ (p : Fin 400) (q : Fin 128), j = ix2 p q := ⟨j 0, j 1, eq_ix2 j⟩
  show outAt m c t (ix2 p q) = G (argX m c) (argA m c) (argW m c) (((cfg0.win 4).blk t).view.emb (ix2 p q))
  rw [outAt_apply]
  unfold Cert.Spec.G
  obtain ⟨-, -, -, -, -, -, -, -, e0, e1⟩ := idx_facts t
  refine congrArg₂ (conv (argX m c) (argA m c) (argW m c)) (Fin.ext ?_) (Fin.ext ?_)
  · show t.val * 400 + p.val = win0_4.index t (0 : Fin 2) * 400 + 1 * p.val
    rw [e0]; omega
  · show q.val = win0_4.index t (1 : Fin 2) * 128 + 1 * q.val
    rw [e1]; omega

/-- An index of the result array is in point t's block iff each coordinate is in the block's range on its axis. -/
theorem mem_blk (t : Fin cfg0.N) (i : S10000x128.Idx) :
    i ∈ ((cfg0.win 4).blk t).view.set ↔ ∀ a : Fin 2, win0_4.index t a * S400x128.size a ≤ (i a).val ∧ (i a).val < win0_4.index t a * S400x128.size a + S400x128.size a := by
  show i ∈ ((View.whole main_v0).slice (win0_4.rect t)).set ↔ _
  rw [View.set_slice_whole, Rect.mem_set_unit]
  exact Iff.rfl

/-- Every row lies in the block of the point row/400. -/
theorem cover (i : S10000x128.Idx) :
    ∃ t : Fin cfg0.N, (cfg0.win 4).flush t = true ∧ i ∈ ((cfg0.win 4).blk t).view.set := by
  have hi0 : (i 0).val < 10000 := (i 0).isLt
  have hi1 : (i 1).val < 128 := (i 1).isLt
  let t : Fin cfg0.N := ⟨(i 0).val / 400, by rw [show cfg0.N = 25 from N_0]; omega⟩
  refine ⟨t, flush0_4 t, ?_⟩
  rw [mem_blk]
  obtain ⟨-, -, -, -, -, -, -, -, e0, e1⟩ := idx_facts t
  have e0' : win0_4.index t (0 : Fin 2) = (i 0).val / 400 := e0
  intro a
  match a with
  | ⟨0, _⟩ =>
    show win0_4.index t (0 : Fin 2) * 400 ≤ (i 0).val ∧ (i 0).val < win0_4.index t (0 : Fin 2) * 400 + 400
    rw [e0']; omega
  | ⟨1, _⟩ =>
    show win0_4.index t (1 : Fin 2) * 128 ≤ (i 1).val ∧ (i 1).val < win0_4.index t (1 : Fin 2) * 128 + 128
    rw [e1]; omega

/-- The result array after the run is adj·(x·W). -/
theorem final (c : Dev nD) : (dats m 0 c).arrAt 4 cfg0.N = G (argX m c) (argA m c) (argW m c) :=
  (dats m 0 c).arrAt_eq_of_cover 4 _ (fun t _ => flushed_eq m c t) cover

/-- The run, with the result array named: it ends at adj·(x·W) of the launch contents, the arguments unchanged. -/
theorem run_value : θ_run defs (onTc (τ := τ) (main (F := Ideal))) ⟨m, fun _ => 0, ρ⟩ (fun r => ∀ c : Dev nD,
      r.2.mem ((c.tc : Thread nD τ).loc main_v0)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (final m c), (h c).2⟩) (run_result m ρ)

end Cert.KernelIdeal.Hand

end
-- ==== Proof.RefSide.lean ====
/-
  The reference at the extended reals is the specification: its second product's entry is a sum over the nodes
  whose right factor is the first product's entry, itself a sum over the input features.
-/
import proofs.«154097_g60198261620747_cont_9to1c4b_559_7_alg».proof.Proof.Gen.ReferenceIdeal.Read
import proofs.«154097_g60198261620747_cont_9to1c4b_559_7_alg».proof.Proof.Spec

noncomputable section

namespace Cert.ReferenceIdeal.RefValue

open Idealize.ShloMosaic Idealize.ShloMosaic.ValueIdx
open Cert.ReferenceIdeal Cert.ReferenceIdeal.Gen Cert.ReferenceIdeal.Read

/-- The reference's result, as a function of the three arguments, is adj·(x·W). -/
theorem result_eq (x : (⟨S10000x128, .f32⟩ : BufTy).Contents (Elt Ideal)) (a : (⟨S10000x10000, .f32⟩ : BufTy).Contents (Elt Ideal))
    (w : (⟨S128x128, .f32⟩ : BufTy).Contents (Elt Ideal)) :
    val_main_v1 (F := Ideal) x a w = Cert.Spec.G x a w := by
  funext i
  obtain ⟨p, q, rfl⟩ : ∃ (p : Fin 10000) (q : Fin 128), i = ix2 p q := ⟨i 0, i 1, eq_ix2 i⟩
  rw [val_main_v1_apply]
  show _ = Cert.Spec.conv x a w p q
  unfold Cert.Spec.conv
  refine Finset.sum_congr rfl fun k _ => ?_
  have e1 : lidx_main_v1 (ix2 p q) k = ix2 p k := funext fun d => Fin.ext (by
    match d with
    | ⟨0, _⟩ => rfl
    | ⟨1, _⟩ => rfl)
  have e2 : ridx_main_v1 (ix2 p q) k = ix2 k q := funext fun d => Fin.ext (by
    match d with
    | ⟨0, _⟩ => rfl
    | ⟨1, _⟩ => rfl)
  rw [e1, e2, val_main_v0_apply]
  refine congrArg _ (Finset.sum_congr rfl fun j _ => ?_)
  have e3 : lidx_main_v0 (ix2 k q) j = ix2 k j := funext fun d => Fin.ext (by
    match d with
    | ⟨0, _⟩ => rfl
    | ⟨1, _⟩ => rfl)
  have e4 : ridx_main_v0 (ix2 k q) j = ix2 j q := funext fun d => Fin.ext (by
    match d with
    | ⟨0, _⟩ => rfl
    | ⟨1, _⟩ => rfl)
  rw [e3, e4]

end Cert.ReferenceIdeal.RefValue

end
-- ==== Proof.lean ====
/-
  A graph-convolution layer, out = adj·(x·W), with a dense 10000×10000 adjacency: a pipelined kernel against two plain
  matrix products.

  The kernel walks the adjacency in 25 steps. Step t takes two blocks of 200 adjacency rows (blocks 2t and 2t+1, read
  through two windows on the one adjacency array) and writes the 400 output rows 400t..400t+399. At step 0 it also
  computes the support x·W once, into a scratch buffer of a narrower float format that every later step reads back.
  Over the extended reals a change of float format is the identity, and a product into a zero accumulator is a plain
  sum, so entry (r, c) of the kernel's result is the sum over k of adj(r, k)·(sum over j of x(k, j)·W(j, c)): row p of
  the block written at step t reads adjacency row 400t + p whichever of the two windows supplied it. The reference's
  two products spell the same nesting of sums, so no law of the extended reals (and no use of the inputs' finiteness)
  is needed to join them.

  The frames: the kernel's region runs to the end without a fault and leaves its three argument arrays unchanged.
  The adjacency buffer is held in two half shares, one per window; the scratch is the region's invariant (anything
  before step 0, the support afterwards). The reference's frame is its run with the result dropped. The kernel's
  idealization rewrote no operation, so there is nothing to preserve.
-/
import proofs.«154097_g60198261620747_cont_9to1c4b_559_7_alg».proof.Defs
import proofs.«154097_g60198261620747_cont_9to1c4b_559_7_alg».proof.Proof.WordFrame
import proofs.«154097_g60198261620747_cont_9to1c4b_559_7_alg».proof.Proof.IdealValue
import proofs.«154097_g60198261620747_cont_9to1c4b_559_7_alg».proof.Proof.RefSide
import proofs.«154097_g60198261620747_cont_9to1c4b_559_7_alg».proof.Proof.Gen.Pre_finite_inputs

noncomputable section

namespace Cert.Proof

open Idealize.ShloMosaic Idealize.ShloMosaic.TcCoe Idealize.SL.Sem

theorem frame_word : Cert.frame_Kernel := fun m ρ _ => Cert.Kernel.Hand.frame m ρ

theorem frame_ideal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with their result arrays at adj·(x·W) of those
    arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_word, frame_ideal, frame_reference, trivial, algebraic⟩

end Cert.Proof

end
